-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S10000x128 : Shape := ⟨2, ![10000, 128]⟩
abbrev S1x64 : Shape := ⟨2, ![1, 64]⟩
abbrev S100000x64 : Shape := ⟨2, ![100000, 64]⟩
abbrev S10000x64 : Shape := ⟨2, ![10000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1600000x128, .f32⟩
  | .hbm, ⟨33, _⟩ => ⟨S_, .f32⟩
  | .hbm, ⟨34, _⟩ => ⟨S100000x128, .f32⟩
  | .hbm, ⟨35, _⟩ => ⟨S1600000x1, .i32⟩
  | .hbm, ⟨36, _⟩ => ⟨S100000x128, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S10000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S10000x64, .f32⟩
  | .local _ .vmem, ⟨17, _⟩ => ⟨S10000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S10000x64_S10000x64_0_0 : ∀ a, (![0, 0] : Fin 2 → Nat) a + S10000x64.size a ≤ S10000x64.size a
  h_S10000x64 : 0 < S10000x64.numel
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x128.size a ≤ S100000x128.size a
  hwx0_5 : ∀ i : grid0.Coords, EltTy.bits .f32 = 32 ∨ (Rect.block (s := S100000x128) S10000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S100000x64.size a
  hwx1_5 : ∀ i : grid1.Coords, EltTy.bits .f32 = 32 ∨ (Rect.block (s := S100000x64) S10000x64.size (cc1_transform_5 i) (hinb1_5 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v24) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v25) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S10000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v40) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S100000x64, .f32⟩
  | .hbm, ⟨73, _⟩ => ⟨S100000x64, .f32⟩
  | .hbm, ⟨74, _⟩ => ⟨S1x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.Layer.lean ====
/-
  One layer of a mean-aggregating graph convolution, read at one entry over the extended reals.

  A node's new feature vector is its aggregated neighbourhood row times one weight matrix, plus its own row times a
  second weight matrix, plus a bias; the first layer is followed by the positive part.  At entry (p, q) this is
      (Σ_c M(p,c)·Wl(c,q) + Σ_c X(p,c)·Wr(c,q)) + b(q),
  the two sums over the contracted coordinate taken separately and added in this order, then the bias.

  The aggregation divides a sum of neighbour rows by the clamped in-degree max(count, 1).  Scaling by the quotient
  1 / max(count, 1) instead is the same on every extended real, because the divisor is never zero: off zero the exact
  division is the product with the reciprocal.
-/
import Idealize.ShloMosaic.PureOps.Ideal
import Idealize.ShloMosaic.PureOps.Ideal.Laws
import Idealize.ShloMosaic.Lib.ValueIdx
import Idealize.ShloMosaic.Lib.IdealHost

noncomputable section

namespace Cert.Sage

open Idealize.ShloMosaic Idealize.ShloMosaic.ValueIdx

/-- Entry (p, q) of a dense combine: aggregated rows times the left weights, plus own rows times the right weights,
    plus the bias of column q. -/
def denseAt {n d o : ℕ} (M X : (⟨2, ![n, d]⟩ : Shape).Idx → EReal) (Wl Wr : (⟨2, ![d, o]⟩ : Shape).Idx → EReal)
    (b : Fin o → EReal) (p : Fin n) (q : Fin o) : EReal :=
  (∑ c : Fin d, M (ix2 p c) * Wl (ix2 c q) + ∑ c : Fin d, X (ix2 p c) * Wr (ix2 c q)) + b q

/-- The dense combine as a whole array. -/
def dense {n d o : ℕ} (M X : (⟨2, ![n, d]⟩ : Shape).Idx → EReal) (Wl Wr : (⟨2, ![d, o]⟩ : Shape).Idx → EReal)
    (b : Fin o → EReal) : (⟨2, ![n, o]⟩ : Shape).Idx → EReal :=
  fun i => denseAt M X Wl Wr b (i 0) (i 1)

/-- The dense combine followed by the positive part. -/
def denseRelu {n d o : ℕ} (M X : (⟨2, ![n, d]⟩ : Shape).Idx → EReal) (Wl Wr : (⟨2, ![d, o]⟩ : Shape).Idx → EReal)
    (b : Fin o → EReal) : (⟨2, ![n, o]⟩ : Shape).Idx → EReal :=
  fun i => max (denseAt M X Wl Wr b (i 0) (i 1)) 0

theorem dense_ix2 {n d o : ℕ} (M X : (⟨2, ![n, d]⟩ : Shape).Idx → EReal) (Wl Wr : (⟨2, ![d, o]⟩ : Shape).Idx → EReal)
    (b : Fin o → EReal) (p : Fin n) (q : Fin o) : dense M X Wl Wr b (ix2 p q) = denseAt M X Wl Wr b p q := rfl

theorem denseRelu_ix2 {n d o : ℕ} (M X : (⟨2, ![n, d]⟩ : Shape).Idx → EReal) (Wl Wr : (⟨2, ![d, o]⟩ : Shape).Idx → EReal)
    (b : Fin o → EReal) (p : Fin n) (q : Fin o) : denseRelu M X Wl Wr b (ix2 p q) = max (denseAt M X Wl Wr b p q) 0 := rfl

/-- Scaling by the quotient of one is dividing, for a divisor that is at least one (so not zero). -/
theorem mul_one_div_of_one_le (a : EReal) {c : EReal} (hc : 1 ≤ c) : a * Ideal.div 1 c = Ideal.div a c := by
  have h0 : c ≠ 0 := fun h => absurd (h ▸ hc) (not_le.mpr zero_lt_one)
  rw [Ideal.div, Ideal.div, if_neg h0, if_neg h0, one_mul]

/-- The mean in its two spellings, entry by entry: the sum scaled by 1 / max(count, 1) is the sum divided by
    max(count, 1). -/
theorem scaled_eq_divided (a k : EReal) :
    a * Ideal.div (Ideal.ofBits .f32 0x3F800000#32) (max k (Ideal.ofBits .f32 0x3F800000#32))
      = Ideal.div a (max k (Ideal.ofBits .f32 0x3F800000#32)) := by
  rw [Ideal.ofBits_one_f32]
  exact mul_one_div_of_one_le a (le_max_right k 1)

end Cert.Sage

end
-- ==== Proof.LibDense.lean ====
/-
  The operations of a dense layer read at one entry, at the ideal values, each stated at an index written by its
  coordinates and generic in the extents:
  a plain matrix product (the kernel's product into the zero splat, whatever the operands' storage formats, and the
  host's dot product) as the sum over the contracted coordinate; a block of rows sliced out of a matrix; two or
  three matrices joined side by side along the columns; a vector laid out as a one-row matrix and that row repeated
  down the rows; a scalar repeated over a whole array; and a finite sum over `Fin r` cut into consecutive blocks.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-! ## Plain matrix products -/

section Products
variable {m k n : ℕ} (w : DotDims.WF ⟨2, ![m, k]⟩ ⟨2, ![k, n]⟩ ⟨2, ![m, n]⟩ [1] [0] [0] [1] [] [])

/-- The left operand's index of a plain product at output entry (a, b) and contracted coordinate c is (a, c). -/
theorem plain_lhsIdx (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index of a plain product at output entry (a, b) and contracted coordinate c is (c, b). -/
theorem plain_rhsIdx (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val
    (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- A product of an m×k by a k×n matrix accumulated into the zero splat, whatever formats the operands are stored
    in, read at entry (a, b): the sum over the contracted coordinate. -/
theorem matmul_plain_apply {φ₁ φ₂ : FTy} (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

/-- The host's dot product of an m×k by a k×n matrix read at entry (a, b): the same sum. -/
theorem hostDot_plain_apply {φ₁ φ₂ : FTy} (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply,
    ← Equiv.sum_comp (contrEquiv1 (⟨[1], [0], [0], [1], [], [], w⟩ : DotDims _ _ _) k rfl rfl).symm]
  exact Finset.sum_congr rfl fun c _ => by rw [plain_lhsIdx w a b c, plain_rhsIdx w a b c]

end Products

/-! ## Layout -/

section Layout
variable {α : Type}

/-- Rows o … o + c - 1 of an a×b matrix, read at (i, j): the matrix at (o + i, j). -/
theorem sliceRows_apply {a b c : ℕ} (o : ℕ) (x : (⟨2, ![a, b]⟩ : Shape).Idx → α)
    (h : (⟨2, ![a, b]⟩ : Shape).Slices ![o, 0] ⟨2, ![c, b]⟩) (i : Fin c) (j : Fin b) (ho : o + i.val < a) :
    extractStridedSlice ⟨2, ![c, b]⟩ ![o, 0] x h (ix2 i j) = x (ix2 ⟨o + i.val, ho⟩ j) :=
  extractStridedSlice_apply _ x h _ _ fun ax => match ax with
    | ⟨0, _⟩ => rfl
    | ⟨1, _⟩ => (Nat.zero_add _).symm

/-- Two matrices side by side: a column of the first. -/
theorem concatCols2_left {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin p) (hc : c.val < r) :
    concatenate ⟨2, ![n, r]⟩ 1 [⟨⟨2, ![n, p]⟩, x₁⟩, ⟨⟨2, ![n, q]⟩, x₂⟩] h (ix2 e ⟨c.val, hc⟩) = x₁ (ix2 e c) :=
  concatenate_pair_apply_left 1 x₁ x₂ h _ rfl _ fun b => match b with
    | ⟨0, _⟩ => rfl
    | ⟨1, _⟩ => rfl

/-- Two matrices side by side: a column of the second sits p columns to the right. -/
theorem concatCols2_right {n p q r : ℕ} (x₁ : (⟨2, ![n, p]⟩ : Shape).Idx → α) (x₂ : (⟨2, ![n, q]⟩ : Shape).Idx → α)
    (h : Shape.Concatenates [(⟨2, ![n, p]⟩ : Shape), ⟨2, ![n, q]⟩] ⟨2, ![n, r]⟩ 1) (e : Fin n) (c : Fin q) (hc : p + c.val < r) :
    concatenate ⟨2, ![n, r]⟩ 1 [⟨⟨2, ![n, p]⟩, x₁⟩, ⟨⟨2, ![n, q]⟩, x₂⟩] h (ix2 e ⟨p + c.val, hc⟩) = x₂ (ix2 e c) :=
  concatenate_pair_apply_right 1 x₁ x₂ h _ rfl rfl _
    (fun b hb => match b with
      | ⟨0, _⟩ => rfl
      | ⟨1, _⟩ => absurd rfl hb)
    (Nat.add_comm _ _)

/-- A vector laid out as a one-row matrix. -/
theorem bcastRow_apply {b : ℕ} (v : (⟨1, ![b]⟩ : Shape).Idx → α)
    (h : (⟨1, ![b]⟩ : Shape).BroadcastsInDim ⟨2, ![1, b]⟩ ![1]) (u : Fin 1) (j : Fin b) :
    broadcastInDim ⟨2, ![1, b]⟩ ![1] h v (ix2 u j) = v (ix1 j) :=
  broadcastInDim_apply _ h v _ _ fun ax => match ax with
    | ⟨0, _⟩ => by
      show j.val = if b = 1 then 0 else j.val
      split
      · have := j.isLt; omega
      · rfl

/-- A one-row matrix repeated down the rows. -/
theorem bcastRows_apply {a b : ℕ} (v : (⟨2, ![1, b]⟩ : Shape).Idx → α)
    (h : (⟨2, ![1, b]⟩ : Shape).BroadcastsInDim ⟨2, ![a, b]⟩ ![0, 1]) (p : Fin a) (j : Fin b) :
    broadcastInDim ⟨2, ![a, b]⟩ ![0, 1] h v (ix2 p j) = v (ix2 (0 : Fin 1) j) :=
  broadcastInDim_apply _ h v _ _ fun ax => match ax with
    | ⟨0, _⟩ => rfl
    | ⟨1, _⟩ => by
      show j.val = if b = 1 then 0 else j.val
      split
      · have := j.isLt; omega
      · rfl

/-- A scalar repeated over a whole array. -/
theorem bcastScalar_apply {s : Shape} (v : (⟨0, ![]⟩ : Shape).Idx → α)
    (h : (⟨0, ![]⟩ : Shape).BroadcastsInDim s ![]) (i : s.Idx) :
    broadcastInDim s ![] h v i = v ix0 :=
  broadcastInDim_apply _ h v i ix0 fun ax => ax.elim0

end Layout

/-! ## A finite sum cut into consecutive blocks -/

section Sums
variable {M : Type} [AddCommMonoid M]

/-- A sum over r = p + q indices is the sum over the first p plus the sum over the last q. -/
theorem sum_split2 {p q r : ℕ} (hr : p + q = r) (f : Fin r → M) :
    ∑ c : Fin r, f c
      = ∑ c : Fin p, f ⟨c.val, by have := c.isLt; omega⟩ + ∑ c : Fin q, f ⟨p + c.val, by have := c.isLt; omega⟩ := by
  subst hr
  rw [Fin.sum_univ_add]
  rfl

/-- A sum over r = p + q + s indices in three consecutive blocks. -/
theorem sum_split3 {p q s r : ℕ} (hr : p + q + s = r) (f : Fin r → M) :
    ∑ c : Fin r, f c
      = (∑ c : Fin p, f ⟨c.val, by have := c.isLt; omega⟩ + ∑ c : Fin q, f ⟨p + c.val, by have := c.isLt; omega⟩)
        + ∑ c : Fin s, f ⟨p + q + c.val, by have := c.isLt; omega⟩ := by
  subst hr
  rw [Fin.sum_univ_add, Fin.sum_univ_add]
  rfl

end Sums

end Cert.Dense

end
-- ==== Proof.KernelBlocks.lean ====
/-
  The two kernel calls as whole-array functions.

  Each call runs over ten grid points.  At point t the two row-blocked operands (the aggregated rows and the nodes'
  own rows) are staged as rows 10000·t … 10000·t + 9999, the two weight matrices and the one-row bias are staged whole,
  and the body stores, into rows 10000·t … 10000·t + 9999 of the result, the dense combine of what it loaded (followed by
  the positive part in the first call).  The body's matrix products go into the zero splat and narrow their operands to
  a shorter float format first; on exact values the narrowing is the identity and each product is the plain sum over
  the contracted coordinate.  Since the ten blocks tile the result array and each is the restriction of ONE function of
  the arrays the call finds, the result array after the call is that function.
-/
import proofs.«104096_j37958920962734_1_alg».proof.Proof.Gen.KernelIdeal.Frame
import proofs.«104096_j37958920962734_1_alg».proof.Proof.Layer
import proofs.«104096_j37958920962734_1_alg».proof.Proof.LibDense
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Blocks

open Cert.KernelIdeal Cert.KernelIdeal.Gen Cert.Sage

/-- The first kernel's stored value at entry (p, q) of its block: the dense combine of the loaded blocks, then
    the positive part.  The operands' narrowing to a shorter float format is the identity on exact values, and the
    product into the zero splat is the sum over the contracted coordinate. -/
theorem pay0_apply (x0 x1 : Vec Ideal S10000x128 .f32) (x2 x3 : Vec Ideal S128x128 .f32) (x4 : Vec Ideal S1x128 .f32)
    (p : Fin 10000) (q : Fin 128) :
    k0_pay1 x0 x1 x2 x3 x4 (ix2 p q) = max (denseAt x0 x1 x2 x3 (fun q => x4 (ix2 0 q)) p q) 0 := by
  unfold k0_pay1 denseAt
  simp only [shapeCast_self, maximumf_apply, addf_apply, broadcast_apply]
  unfold dot_S10000x128_S128x128_S10000x128_1_0_0_1_n_n
  rw [Cert.Dense.matmul_plain_apply, Cert.Dense.matmul_plain_apply, broadcastTo_1b_ab_apply]
  simp only [truncf_apply]
  show max _ (Ideal.ofBits .f32 0x00000000#32) = _
  rw [Ideal.ofBits_zero_f32]

/-- The second kernel's stored value at entry (p, q) of its block: the dense combine of the loaded blocks. -/
theorem pay1_apply (x0 x1 : Vec Ideal S10000x128 .f32) (x2 x3 : Vec Ideal S128x64 .f32) (x4 : Vec Ideal S1x64 .f32)
    (p : Fin 10000) (q : Fin 64) :
    k1_pay1 x0 x1 x2 x3 x4 (ix2 p q) = denseAt x0 x1 x2 x3 (fun q => x4 (ix2 0 q)) p q := by
  unfold k1_pay1 denseAt
  simp only [shapeCast_self, maximumf_apply, addf_apply, broadcast_apply]
  unfold dot_S10000x128_S128x64_S10000x64_1_0_0_1_n_n
  rw [Cert.Dense.matmul_plain_apply, Cert.Dense.matmul_plain_apply, broadcastTo_1b_ab_apply]
  simp only [truncf_apply]

/-- One grid point of the first call, over variables: if the two row-blocked operands' blocks are rows
    10000·t … 10000·t + 9999 of their arrays and the weights' and bias' blocks are the whole arrays, the stored block
    at j is the layer at the array index i whose row is 10000·t + (j's row) and whose column is j's. -/
theorem point0 (A X : S100000x128.Idx → EReal) (Wl Wr : S128x128.Idx → EReal) (b : S1x128.Idx → EReal)
    (x0 x1 : Vec Ideal S10000x128 .f32) (x2 x3 : Vec Ideal S128x128 .f32) (x4 : Vec Ideal S1x128 .f32)
    (tv : ℕ) (ht : tv < 10)
    (h0 : ∀ (p : Fin 10000) (k : Fin 128), x0 (ix2 p k) = A (ix2 ⟨10000 * tv + p.val, by omega⟩ k))
    (h1 : ∀ (p : Fin 10000) (k : Fin 128), x1 (ix2 p k) = X (ix2 ⟨10000 * tv + p.val, by omega⟩ k))
    (h2 : x2 = Wl) (h3 : x3 = Wr) (h4 : x4 = b)
    (j : S10000x128.Idx) (i : S100000x128.Idx) (hi0 : (i 0).val = 10000 * tv + (j 0).val) (hi1 : (i 1).val = (j 1).val) :
    k0_pay1 x0 x1 x2 x3 x4 j = denseRelu A X Wl Wr (fun q => b (ix2 0 q)) i := by
  obtain ⟨p, q, rfl⟩ : ∃ (p : Fin 10000) (q : Fin 128), j = ix2 p q := ⟨j 0, j 1, eq_ix2 j⟩
  have hi : i = ix2 (⟨10000 * tv + p.val, by omega⟩ : Fin 100000) q := by
    funext a
    match a with
    | ⟨0, _⟩ => exact Fin.ext hi0
    | ⟨1, _⟩ => exact Fin.ext hi1
  rw [hi, pay0_apply, denseRelu_ix2]
  subst h2 h3 h4
  unfold denseAt
  simp only [h0, h1]

/-- One grid point of the second call, over variables (as for the first, without the positive part). -/
theorem point1 (A X : S100000x128.Idx → EReal) (Wl Wr : S128x64.Idx → EReal) (b : S1x64.Idx → EReal)
    (x0 x1 : Vec Ideal S10000x128 .f32) (x2 x3 : Vec Ideal S128x64 .f32) (x4 : Vec Ideal S1x64 .f32)
    (tv : ℕ) (ht : tv < 10)
    (h0 : ∀ (p : Fin 10000) (k : Fin 128), x0 (ix2 p k) = A (ix2 ⟨10000 * tv + p.val, by omega⟩ k))
    (h1 : ∀ (p : Fin 10000) (k : Fin 128), x1 (ix2 p k) = X (ix2 ⟨10000 * tv + p.val, by omega⟩ k))
    (h2 : x2 = Wl) (h3 : x3 = Wr) (h4 : x4 = b)
    (j : S10000x64.Idx) (i : S100000x64.Idx) (hi0 : (i 0).val = 10000 * tv + (j 0).val) (hi1 : (i 1).val = (j 1).val) :
    k1_pay1 x0 x1 x2 x3 x4 j = dense A X Wl Wr (fun q => b (ix2 0 q)) i := by
  obtain ⟨p, q, rfl⟩ : ∃ (p : Fin 10000) (q : Fin 64), j = ix2 p q := ⟨j 0, j 1, eq_ix2 j⟩
  have hi : i = ix2 (⟨10000 * tv + p.val, by omega⟩ : Fin 100000) q := by
    funext a
    match a with
    | ⟨0, _⟩ => exact Fin.ext hi0
    | ⟨1, _⟩ => exact Fin.ext hi1
  rw [hi, pay1_apply, dense_ix2]
  subst h2 h3 h4
  unfold denseAt
  simp only [h0, h1]

variable (V : (c : Dev nD) → (b : Ref sig .tc) → Buf (Elt Ideal) ((c : Thread nD τ).loc b))

theorem hz : (![0, 0] : Fin 2 → Nat) = fun _ => 0 := funext fun a => by fin_cases a <;> rfl

/-- Call 0's index maps over its ten grid points: the row-blocked windows sit at block row t, the weights
    and the bias at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 ∧ t.val < 10 :=
  (by decide +kernel : ∀ t : Fin grid0.N, _)

/-- What grid point t of call 0 writes back is block t of the layer of the arrays the call finds: each row-blocked
    operand's block is rows 10000·t … 10000·t + 9999 of its array, the weights and the bias are read whole. -/
theorem flushed0 (c : Dev nD) (t : Fin cfg0.N) :
    (dat0 V c).flushed 5 t = ((cfg0.win 5).blk t).view.read (Elt Ideal)
      (denseRelu (V c main_v24) (V c main_arg0) (V c main_arg2) (V c main_arg3) (fun q => V c main_v25 (ix2 0 q))) := by
  show (cfg0.win 5).cut (grid0.coords t) ((dat0 V c).after 5 t) = _
  rw [after0_5]
  unfold out0_5
  rw [View.canon_unit_zero hz]
  simp only [View.ld_unit_zero (S := S10000x128) hz, View.ld_unit_zero (S := S128x128) hz, View.ld_unit_zero (S := S1x128) hz]
  obtain ⟨e00, e01, e10, e11, e20, e21, e30, e31, e40, e41, e50, e51, ht⟩ := idx0 t
  funext j
  show k0_pay1 (iblk0 V c 0 t) (iblk0 V c 1 t) (iblk0 V c 2 t) (iblk0 V c 3 t) (iblk0 V c 4 t) j
     = denseRelu (V c main_v24) (V c main_arg0) (V c main_arg2) (V c main_arg3) (fun q => V c main_v25 (ix2 0 q)) (((cfg0.win 5).blk t).view.emb j)
  refine point0 (V c main_v24) (V c main_arg0) (V c main_arg2) (V c main_arg3) (V c main_v25) _ _ _ _ _ t.val ht ?_ ?_ ?_ ?_ ?_ j _ ?_ ?_
  · intro p k
    show V c main_v24 (((cfg0.win 0).blk t).view.emb (ix2 p k)) = V c main_v24 _
    refine congrArg (V c main_v24) (funext fun a => Fin.ext ?_)
    match a with
    | ⟨0, _⟩ => show win0_0.index t (0 : Fin 2) * 10000 + 1 * p.val = 10000 * t.val + p.val; omega
    | ⟨1, _⟩ => show win0_0.index t (1 : Fin 2) * 128 + 1 * k.val = k.val; omega
  · intro p k
    show V c main_arg0 (((cfg0.win 1).blk t).view.emb (ix2 p k)) = V c main_arg0 _
    refine congrArg (V c main_arg0) (funext fun a => Fin.ext ?_)
    match a with
    | ⟨0, _⟩ => show win0_1.index t (0 : Fin 2) * 10000 + 1 * p.val = 10000 * t.val + p.val; omega
    | ⟨1, _⟩ => show win0_1.index t (1 : Fin 2) * 128 + 1 * k.val = k.val; omega
  · funext y
    show V c main_arg2 (((cfg0.win 2).blk t).view.emb y) = V c main_arg2 y
    refine congrArg (V c main_arg2) (funext fun a => Fin.ext ?_)
    match a with
    | ⟨0, _⟩ => show win0_2.index t (0 : Fin 2) * 128 + 1 * (y 0).val = (y 0).val; omega
    | ⟨1, _⟩ => show win0_2.index t (1 : Fin 2) * 128 + 1 * (y 1).val = (y 1).val; omega
  · funext y
    show V c main_arg3 (((cfg0.win 3).blk t).view.emb y) = V c main_arg3 y
    refine congrArg (V c main_arg3) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  · funext y
    show V c main_v25 (((cfg0.win 4).blk t).view.emb y) = V c main_v25 y
    refine congrArg (V c main_v25) (funext fun a => Fin.ext ?_)
    match a with
    | ⟨0, _⟩ => show win0_4.index t (0 : Fin 2) * 1 + 1 * (y 0).val = (y 0).val; omega
    | ⟨1, _⟩ => show win0_4.index t (1 : Fin 2) * 128 + 1 * (y 1).val = (y 1).val; omega
  · show win0_5.index t (0 : Fin 2) * 10000 + 1 * (j 0).val = 10000 * t.val + (j 0).val; omega
  · show win0_5.index t (1 : Fin 2) * 128 + 1 * (j 1).val = (j 1).val; omega

/-- An index of call 0's result array is in point t's block iff each coordinate is in the block's range. -/
theorem mem_blk0 (t : Fin cfg0.N) (i : S100000x128.Idx) :
    i ∈ ((cfg0.win 5).blk t).view.set ↔ ∀ a : Fin 2, win0_5.index t a * S10000x128.size a ≤ (i a).val ∧ (i a).val < win0_5.index t a * S10000x128.size a + S10000x128.size a := by
  show i ∈ ((View.whole main_v26).slice (win0_5.rect t)).set ↔ _
  rw [View.set_slice_whole, Rect.mem_set_unit]
  exact Iff.rfl

/-- The ten row blocks cover the result array: row r lies in block r / 10000. -/
theorem cover0 (i : S100000x128.Idx) :
    ∃ t : Fin cfg0.N, (cfg0.win 5).flush t = true ∧ i ∈ ((cfg0.win 5).blk t).view.set := by
  have h0 : (i 0).val < 100000 := (i 0).isLt
  have h1 : (i 1).val < 128 := (i 1).isLt
  have hN : cfg0.N = 10 := N_0
  refine ⟨⟨(i 0).val / 10000, by rw [hN]; omega⟩, flush0_5 _, ?_⟩
  rw [mem_blk0]
  obtain ⟨-, -, -, -, -, -, -, -, -, -, e50, e51, -⟩ := idx0 ⟨(i 0).val / 10000, by rw [hN]; omega⟩
  intro a
  match a with
  | ⟨0, _⟩ =>
    show win0_5.index _ (0 : Fin 2) * 10000 ≤ (i 0).val ∧ (i 0).val < win0_5.index _ (0 : Fin 2) * 10000 + 10000
    rw [e50]; show (i 0).val / 10000 * 10000 ≤ (i 0).val ∧ (i 0).val < (i 0).val / 10000 * 10000 + 10000; omega
  | ⟨1, _⟩ =>
    show win0_5.index _ (1 : Fin 2) * 128 ≤ (i 1).val ∧ (i 1).val < win0_5.index _ (1 : Fin 2) * 128 + 128
    rw [e51]; omega

/-- Call 0's result array after the call: the layer of the arrays the call finds, as one whole-array function. -/
theorem final0 (c : Dev nD) :
    (dat0 V c).arrAt 5 cfg0.N
      = denseRelu (V c main_v24) (V c main_arg0) (V c main_arg2) (V c main_arg3) (fun q => V c main_v25 (ix2 0 q)) :=
  (dat0 V c).arrAt_eq_of_cover 5 _ (fun t _ => flushed0 V c t) cover0

/-- Call 1's index maps over its ten grid points: the row-blocked windows sit at block row t, the weights
    and the bias at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 ∧ t.val < 10 :=
  (by decide +kernel : ∀ t : Fin grid1.N, _)

/-- What grid point t of call 1 writes back is block t of the layer of the arrays the call finds: each row-blocked
    operand's block is rows 10000·t … 10000·t + 9999 of its array, the weights and the bias are read whole. -/
theorem flushed1 (c : Dev nD) (t : Fin cfg1.N) :
    (dat1 V c).flushed 5 t = ((cfg1.win 5).blk t).view.read (Elt Ideal)
      (dense (V c main_v39) (V c main_v26) (V c main_arg5) (V c main_arg6) (fun q => V c main_v40 (ix2 0 q))) := by
  show (cfg1.win 5).cut (grid1.coords t) ((dat1 V c).after 5 t) = _
  rw [after1_5]
  unfold out1_5
  rw [View.canon_unit_zero hz]
  simp only [View.ld_unit_zero (S := S10000x128) hz, View.ld_unit_zero (S := S128x64) hz, View.ld_unit_zero (S := S1x64) hz]
  obtain ⟨e00, e01, e10, e11, e20, e21, e30, e31, e40, e41, e50, e51, ht⟩ := idx1 t
  funext j
  show k1_pay1 (iblk1 V c 0 t) (iblk1 V c 1 t) (iblk1 V c 2 t) (iblk1 V c 3 t) (iblk1 V c 4 t) j
     = dense (V c main_v39) (V c main_v26) (V c main_arg5) (V c main_arg6) (fun q => V c main_v40 (ix2 0 q)) (((cfg1.win 5).blk t).view.emb j)
  refine point1 (V c main_v39) (V c main_v26) (V c main_arg5) (V c main_arg6) (V c main_v40) _ _ _ _ _ t.val ht ?_ ?_ ?_ ?_ ?_ j _ ?_ ?_
  · intro p k
    show V c main_v39 (((cfg1.win 0).blk t).view.emb (ix2 p k)) = V c main_v39 _
    refine congrArg (V c main_v39) (funext fun a => Fin.ext ?_)
    match a with
    | ⟨0, _⟩ => show win1_0.index t (0 : Fin 2) * 10000 + 1 * p.val = 10000 * t.val + p.val; omega
    | ⟨1, _⟩ => show win1_0.index t (1 : Fin 2) * 128 + 1 * k.val = k.val; omega
  · intro p k
    show V c main_v26 (((cfg1.win 1).blk t).view.emb (ix2 p k)) = V c main_v26 _
    refine congrArg (V c main_v26) (funext fun a => Fin.ext ?_)
    match a with
    | ⟨0, _⟩ => show win1_1.index t (0 : Fin 2) * 10000 + 1 * p.val = 10000 * t.val + p.val; omega
    | ⟨1, _⟩ => show win1_1.index t (1 : Fin 2) * 128 + 1 * k.val = k.val; omega
  · funext y
    show V c main_arg5 (((cfg1.win 2).blk t).view.emb y) = V c main_arg5 y
    refine congrArg (V c main_arg5) (funext fun a => Fin.ext ?_)
    match a with
    | ⟨0, _⟩ => show win1_2.index t (0 : Fin 2) * 128 + 1 * (y 0).val = (y 0).val; omega
    | ⟨1, _⟩ => show win1_2.index t (1 : Fin 2) * 64 + 1 * (y 1).val = (y 1).val; omega
  · funext y
    show V c main_arg6 (((cfg1.win 3).blk t).view.emb y) = V c main_arg6 y
    refine congrArg (V c main_arg6) (funext fun a => Fin.ext ?_)
    match a with
    | ⟨0, _⟩ => show win1_3.index t (0 : Fin 2) * 128 + 1 * (y 0).val = (y 0).val; omega
    | ⟨1, _⟩ => show win1_3.index t (1 : Fin 2) * 64 + 1 * (y 1).val = (y 1).val; omega
  · funext y
    show V c main_v40 (((cfg1.win 4).blk t).view.emb y) = V c main_v40 y
    refine congrArg (V c main_v40) (funext fun a => Fin.ext ?_)
    match a with
    | ⟨0, _⟩ => show win1_4.index t (0 : Fin 2) * 1 + 1 * (y 0).val = (y 0).val; omega
    | ⟨1, _⟩ => show win1_4.index t (1 : Fin 2) * 64 + 1 * (y 1).val = (y 1).val; omega
  · show win1_5.index t (0 : Fin 2) * 10000 + 1 * (j 0).val = 10000 * t.val + (j 0).val; omega
  · show win1_5.index t (1 : Fin 2) * 64 + 1 * (j 1).val = (j 1).val; omega

/-- An index of call 1's result array is in point t's block iff each coordinate is in the block's range. -/
theorem mem_blk1 (t : Fin cfg1.N) (i : S100000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v41).slice (win1_5.rect t)).set ↔ _
  rw [View.set_slice_whole, Rect.mem_set_unit]
  exact Iff.rfl

/-- The ten row blocks cover the result array: row r lies in block r / 10000. -/
theorem cover1 (i : S100000x64.Idx) :
    ∃ t : Fin cfg1.N, (cfg1.win 5).flush t = true ∧ i ∈ ((cfg1.win 5).blk t).view.set := by
  have h0 : (i 0).val < 100000 := (i 0).isLt
  have h1 : (i 1).val < 64 := (i 1).isLt
  have hN : cfg1.N = 10 := N_1
  refine ⟨⟨(i 0).val / 10000, by rw [hN]; omega⟩, flush1_5 _, ?_⟩
  rw [mem_blk1]
  obtain ⟨-, -, -, -, -, -, -, -, -, -, e50, e51, -⟩ := idx1 ⟨(i 0).val / 10000, by rw [hN]; omega⟩
  intro a
  match a with
  | ⟨0, _⟩ =>
    show win1_5.index _ (0 : Fin 2) * 10000 ≤ (i 0).val ∧ (i 0).val < win1_5.index _ (0 : Fin 2) * 10000 + 10000
    rw [e50]; show (i 0).val / 10000 * 10000 ≤ (i 0).val ∧ (i 0).val < (i 0).val / 10000 * 10000 + 10000; omega
  | ⟨1, _⟩ =>
    show win1_5.index _ (1 : Fin 2) * 64 ≤ (i 1).val ∧ (i 1).val < win1_5.index _ (1 : Fin 2) * 64 + 64
    rw [e51]; omega

/-- Call 1's result array after the call: the layer of the arrays the call finds, as one whole-array function. -/
theorem final1 (c : Dev nD) :
    (dat1 V c).arrAt 5 cfg1.N
      = dense (V c main_v39) (V c main_v26) (V c main_arg5) (V c main_arg6) (fun q => V c main_v40 (ix2 0 q)) :=
  (dat1 V c).arrAt_eq_of_cover 5 _ (fun t _ => flushed1 V c t) cover1

end Cert.KernelIdeal.Blocks

end
-- ==== Proof.KernelRun.lean ====
/-
  The kernel program's result as one function of its argument arrays.

  The program is: host operations (the edge list cut into its source row and its destination row, the in-degree
  counted by a scatter-add of ones, its clamped reciprocal, the mean aggregation of the input features: gather the
  source rows, scatter-add them at the destination rows, scale each row by the reciprocal), the first kernel call, the
  same aggregation applied to the first call's result, the second kernel call.  Every run of the program ends with each
  unscoped buffer at the contents obtained by folding these four stretches over the launch memory.  Reading that fold at
  the result buffer, stretch by stretch from the end: the second call's result array is the dense combine of the arrays
  it finds; those are the host's aggregation of the first call's result array, that array itself, and the second layer's
  arguments; the first call's result is the dense combine with positive part of the arrays it finds, which the first
  stretch of host operations computes from the arguments.
-/
import proofs.«104096_j37958920962734_1_alg».proof.Proof.Gen.KernelIdeal.Frame
import proofs.«104096_j37958920962734_1_alg».proof.Proof.KernelBlocks
import Idealize.ShloMosaic.Lib.StableHlo.Run
import Idealize.ShloMosaic.Lib.ValueLayout

set_option maxRecDepth 16384

noncomputable section

namespace Cert.KernelIdeal.Run

open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.Sage

/-! ## The host operations' terms -/

/-- The source row of the edge list, as a vector of words. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination row of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The reciprocal of the clamped in-degree: one over max(scatter-add of ones at the destinations, one). -/
def invOf (dst : (⟨S1600000, .i32⟩ : BufTy).Contents (Elt Ideal)) : (⟨S100000, .f32⟩ : BufTy).Contents (Elt Ideal) :=
  Host.divf (broadcastInDim S100000 ![] bcast_S_S100000 (constant (F := Ideal) S_ .f32 0x3F800000#32))
    (maximumf
      (Host.scatterAdd (F := Ideal) scatter_S100000_S1600000x1_S1600000_n_0_0_1
        (broadcastInDim S100000 ![] bcast_S_S100000 (constant (F := Ideal) S_ .f32 0x00000000#32))
        (broadcastInDim S1600000x1 ![0] bcast_S1600000_S1600000x1_0 dst)
        (broadcastInDim S1600000 ![] bcast_S_S1600000 (constant (F := Ideal) S_ .f32 0x3F800000#32)))
      (broadcastInDim S100000 ![] bcast_S_S100000 (constant (F := Ideal) S_ .f32 0x3F800000#32)))

/-- The mean aggregation as this program spells it: gather the rows at the (wrapped) source words, scatter-add them
    into zeros at the destination words, scale each row by the reciprocal count. -/
def aggMul (src dst : (⟨S1600000, .i32⟩ : BufTy).Contents (Elt Ideal)) (inv : (⟨S100000, .f32⟩ : BufTy).Contents (Elt Ideal))
    (f : (⟨S100000x128, .f32⟩ : BufTy).Contents (Elt Ideal)) : (⟨S100000x128, .f32⟩ : BufTy).Contents (Elt Ideal) :=
  mulf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 f
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0 inv))

/-- The program's result as a function of its arguments: the second layer on the aggregated hidden features, the
    hidden features being the first layer (with positive part) on the aggregated input features. -/
def kernelOut (x : (⟨S100000x128, .f32⟩ : BufTy).Contents (Elt Ideal)) (e : (⟨S2x1600000, .i32⟩ : BufTy).Contents (Elt Ideal))
    (W1l W1r : (⟨S128x128, .f32⟩ : BufTy).Contents (Elt Ideal)) (b1 : (⟨S128, .f32⟩ : BufTy).Contents (Elt Ideal))
    (W2l W2r : (⟨S128x64, .f32⟩ : BufTy).Contents (Elt Ideal)) (b2 : (⟨S64, .f32⟩ : BufTy).Contents (Elt Ideal)) :
    (⟨S100000x64, .f32⟩ : BufTy).Contents (Elt Ideal) :=
  dense (aggMul (srcOf e) (dstOf e) (invOf (dstOf e))
      (denseRelu (aggMul (srcOf e) (dstOf e) (invOf (dstOf e)) x) x W1l W1r (fun q => b1 (ix1 q))))
    (denseRelu (aggMul (srcOf e) (dstOf e) (invOf (dstOf e)) x) x W1l W1r (fun q => b1 (ix1 q)))
    W2l W2r (fun q => b2 (ix1 q))

variable (m : (ℓ : Loc nD τ sig) → Buf (Elt Ideal) ℓ) (ρ : Dev nD → PrngReg)

local notation "𝕄" => MT nD τ sig Unit (Elt Ideal) ℕ (UR sig nD τ) ℕ

/-! ## The first stretch of host operations, read at the buffers the first call and the second stretch use -/

set_option maxHeartbeats 4000000 in
theorem W1_v1 (c : Dev nD) : W1 m ρ c (Proc.devRef .tc main_v1) = srcOf (m ((c : Thread nD τ).loc main_arg1)) := by
  show StableHlo.after hostOps0 (W0 m ρ c) (Proc.devRef .tc main_v1) = _
  after_results_simp
  rfl

set_option maxHeartbeats 4000000 in
theorem W1_v3 (c : Dev nD) : W1 m ρ c (Proc.devRef .tc main_v3) = dstOf (m ((c : Thread nD τ).loc main_arg1)) := by
  show StableHlo.after hostOps0 (W0 m ρ c) (Proc.devRef .tc main_v3) = _
  after_results_simp
  rfl

set_option maxHeartbeats 4000000 in
theorem W1_v11 (c : Dev nD) : W1 m ρ c (Proc.devRef .tc main_v11) = invOf (dstOf (m ((c : Thread nD τ).loc main_arg1))) := by
  show StableHlo.after hostOps0 (W0 m ρ c) (Proc.devRef .tc main_v11) = _
  after_results_simp
  rfl

set_option maxHeartbeats 4000000 in
theorem V1_v24 (c : Dev nD) : V1 m ρ c main_v24
    = aggMul (srcOf (m ((c : Thread nD τ).loc main_arg1))) (dstOf (m ((c : Thread nD τ).loc main_arg1)))
        (invOf (dstOf (m ((c : Thread nD τ).loc main_arg1)))) (m ((c : Thread nD τ).loc main_arg0)) := by
  show StableHlo.after hostOps0 (W0 m ρ c) (Proc.devRef .tc main_v24) = _
  after_results_simp
  rfl

set_option maxHeartbeats 4000000 in
theorem V1_v25 (c : Dev nD) : V1 m ρ c main_v25 = shapeCast S1x128 (m ((c : Thread nD τ).loc main_arg4)) shapeCasts_S128_S1x128 := by
  show StableHlo.after hostOps0 (W0 m ρ c) (Proc.devRef .tc main_v25) = _
  after_results_simp
  rfl

set_option maxHeartbeats 4000000 in
theorem V1_arg0 (c : Dev nD) : V1 m ρ c main_arg0 = m ((c : Thread nD τ).loc main_arg0) := by
  show StableHlo.after hostOps0 (W0 m ρ c) (Proc.devRef .tc main_arg0) = _
  after_results_simp

set_option maxHeartbeats 4000000 in
theorem V1_arg2 (c : Dev nD) : V1 m ρ c main_arg2 = m ((c : Thread nD τ).loc main_arg2) := by
  show StableHlo.after hostOps0 (W0 m ρ c) (Proc.devRef .tc main_arg2) = _
  after_results_simp

set_option maxHeartbeats 4000000 in
theorem V1_arg3 (c : Dev nD) : V1 m ρ c main_arg3 = m ((c : Thread nD τ).loc main_arg3) := by
  show StableHlo.after hostOps0 (W0 m ρ c) (Proc.devRef .tc main_arg3) = _
  after_results_simp

set_option maxHeartbeats 4000000 in
theorem W1_arg5 (c : Dev nD) : W1 m ρ c (Proc.devRef .tc main_arg5) = m ((c : Thread nD τ).loc main_arg5) := by
  show StableHlo.after hostOps0 (W0 m ρ c) (Proc.devRef .tc main_arg5) = _
  after_results_simp

set_option maxHeartbeats 4000000 in
theorem W1_arg6 (c : Dev nD) : W1 m ρ c (Proc.devRef .tc main_arg6) = m ((c : Thread nD τ).loc main_arg6) := by
  show StableHlo.after hostOps0 (W0 m ρ c) (Proc.devRef .tc main_arg6) = _
  after_results_simp

set_option maxHeartbeats 4000000 in
theorem W1_arg7 (c : Dev nD) : W1 m ρ c (Proc.devRef .tc main_arg7) = m ((c : Thread nD τ).loc main_arg7) := by
  show StableHlo.after hostOps0 (W0 m ρ c) (Proc.devRef .tc main_arg7) = _
  after_results_simp

/-! ## The first call's result array, and what the second stretch of host operations finds -/

/-- After the first call its result array holds the first layer of the arguments. -/
theorem W2_v26 (c : Dev nD) : W2 m ρ c (Proc.devRef .tc main_v26)
    = denseRelu (aggMul (srcOf (m ((c : Thread nD τ).loc main_arg1))) (dstOf (m ((c : Thread nD τ).loc main_arg1)))
          (invOf (dstOf (m ((c : Thread nD τ).loc main_arg1)))) (m ((c : Thread nD τ).loc main_arg0)))
        (m ((c : Thread nD τ).loc main_arg0)) (m ((c : Thread nD τ).loc main_arg2)) (m ((c : Thread nD τ).loc main_arg3))
        (fun q => m ((c : Thread nD τ).loc main_arg4) (ix1 q)) := by
  refine (W2_arr m ρ c 5).trans ((Blocks.final0 (V1 m ρ) c).trans ?_)
  rw [V1_v24, V1_arg0, V1_arg2, V1_arg3, V1_v25]
  refine congrArg (denseRelu _ _ _ _) (funext fun q => ?_)
  exact shapeCast_a_1a_apply _ _ _ _

/-- The first call leaves every buffer that is not one of its arrays as it found it. -/
theorem W2_v1 (c : Dev nD) : W2 m ρ c (Proc.devRef .tc main_v1) = srcOf (m ((c : Thread nD τ).loc main_arg1)) :=
  (W2_of_ne m ρ c main_v1 (by decide)).trans (W1_v1 m ρ c)
theorem W2_v3 (c : Dev nD) : W2 m ρ c (Proc.devRef .tc main_v3) = dstOf (m ((c : Thread nD τ).loc main_arg1)) :=
  (W2_of_ne m ρ c main_v3 (by decide)).trans (W1_v3 m ρ c)
theorem W2_v11 (c : Dev nD) : W2 m ρ c (Proc.devRef .tc main_v11) = invOf (dstOf (m ((c : Thread nD τ).loc main_arg1))) :=
  (W2_of_ne m ρ c main_v11 (by decide)).trans (W1_v11 m ρ c)
theorem W2_arg5 (c : Dev nD) : W2 m ρ c (Proc.devRef .tc main_arg5) = m ((c : Thread nD τ).loc main_arg5) :=
  (W2_of_ne m ρ c main_arg5 (by decide)).trans (W1_arg5 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)

/-! ## The second stretch of host operations, read at the second call's arrays -/

set_option maxHeartbeats 4000000 in
theorem V3_v39 (c : Dev nD) : V3 m ρ c main_v39
    = aggMul (W2 m ρ c (Proc.devRef .tc main_v1)) (W2 m ρ c (Proc.devRef .tc main_v3)) (W2 m ρ c (Proc.devRef .tc main_v11))
        (W2 m ρ c (Proc.devRef .tc main_v26)) := by
  show StableHlo.after hostOps1 (W2 m ρ c) (Proc.devRef .tc main_v39) = _
  after_results_simp
  rfl

set_option maxHeartbeats 4000000 in
theorem V3_v26 (c : Dev nD) : V3 m ρ c main_v26 = W2 m ρ c (Proc.devRef .tc main_v26) := by
  show StableHlo.after hostOps1 (W2 m ρ c) (Proc.devRef .tc main_v26) = _
  after_results_simp

set_option maxHeartbeats 4000000 in
theorem V3_arg5 (c : Dev nD) : V3 m ρ c main_arg5 = W2 m ρ c (Proc.devRef .tc main_arg5) := by
  show StableHlo.after hostOps1 (W2 m ρ c) (Proc.devRef .tc main_arg5) = _
  after_results_simp

set_option maxHeartbeats 4000000 in
theorem V3_arg6 (c : Dev nD) : V3 m ρ c main_arg6 = W2 m ρ c (Proc.devRef .tc main_arg6) := by
  show StableHlo.after hostOps1 (W2 m ρ c) (Proc.devRef .tc main_arg6) = _
  after_results_simp

set_option maxHeartbeats 4000000 in
theorem V3_v40 (c : Dev nD) : V3 m ρ c main_v40 = shapeCast S1x64 (W2 m ρ c (Proc.devRef .tc main_arg7)) shapeCasts_S64_S1x64 := by
  show StableHlo.after hostOps1 (W2 m ρ c) (Proc.devRef .tc main_v40) = _
  after_results_simp
  rfl

/-! ## The result buffer at the end of the run -/

/-- At the end of the run the result buffer holds `kernelOut` of the launch contents of the arguments. -/
theorem W4_out (c : Dev nD) : W4 m ρ c (Proc.devRef .tc main_v41)
    = kernelOut (m ((c : Thread nD τ).loc main_arg0)) (m ((c : Thread nD τ).loc main_arg1))
        (m ((c : Thread nD τ).loc main_arg2)) (m ((c : Thread nD τ).loc main_arg3)) (m ((c : Thread nD τ).loc main_arg4))
        (m ((c : Thread nD τ).loc main_arg5)) (m ((c : Thread nD τ).loc main_arg6)) (m ((c : Thread nD τ).loc main_arg7)) := by
  refine (W4_arr m ρ c 5).trans ((Blocks.final1 (V3 m ρ) c).trans ?_)
  rw [V3_v39, V3_v26, V3_arg5, V3_arg6, V3_v40, W2_v1, W2_v3, W2_v11, W2_v26, W2_arg5, W2_arg6, W2_arg7]
  unfold kernelOut
  refine congrArg (dense _ _ _ _) (funext fun q => ?_)
  exact shapeCast_a_1a_apply _ _ _ _

/-! ## The run -/

-- matching the statement below against the conclusion of the theorem for a program of several regions takes unfolding
-- plain definitions inside a metavariable's type
set_option backward.isDefEq.respectTransparency.types false in
/-- Every weakly fair execution of the program terminates, without a fault, with the result buffer at `kernelOut` of the
    launch contents of the arguments and the arguments unchanged: the run over the program's four segments ends with
    every unscoped buffer at the last boundary's contents, read here at the result buffer and at each argument. -/
theorem run_out : θ_run defs (onTc (τ := τ) (main (F := Ideal))) ⟨m, fun _ => 0, ρ⟩ (fun r => ∀ c : Dev nD,
      r.2.mem ((c.tc : Thread nD τ).loc main_v41)
        = kernelOut (m ((c.tc : Thread nD τ).loc main_arg0)) (m ((c.tc : Thread nD τ).loc main_arg1))
            (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v41 (by decide))).trans (W4_out m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.KernelIdeal.Run

end
-- ==== Proof.HostLayer.lean ====
/-
  The host's spelling of one layer as the dense combine.

  On the host a layer is written with two plain dot products, added, plus the bias vector laid out as one row and
  that row repeated down the rows.  Read at entry (p, q) each dot product is the sum over the contracted coordinate, and
  the repeated row reads the bias at q: this is the dense combine entry by entry, so the two arrays are equal.  The
  positive part on the host is the maximum with the zero splat.
-/
import proofs.«104096_j37958920962734_1_alg».proof.Proof.Layer
import proofs.«104096_j37958920962734_1_alg».proof.Proof.LibDense

noncomputable section

namespace Cert.Sage

open Idealize.ShloMosaic Idealize.ShloMosaic.ValueIdx

/-- Two plain dot products added, plus the bias broadcast along the rows: the dense combine. -/
theorem hostLayer_eq {n d o : ℕ} (w : DotDims.WF ⟨2, ![n, d]⟩ ⟨2, ![d, o]⟩ ⟨2, ![n, o]⟩ [1] [0] [0] [1] [] [])
    (A X : FVec Ideal ⟨2, ![n, d]⟩ .f32) (Wl Wr : FVec Ideal ⟨2, ![d, o]⟩ .f32) (b : FVec Ideal ⟨1, ![o]⟩ .f32)
    (h1 : (⟨1, ![o]⟩ : Shape).BroadcastsInDim ⟨2, ![1, o]⟩ ![1])
    (h2 : (⟨2, ![1, o]⟩ : Shape).BroadcastsInDim ⟨2, ![n, o]⟩ ![0, 1]) :
    addf (addf (Host.dotGeneral (⟨[1], [0], [0], [1], [], [], w⟩ : DotDims ⟨2, ![n, d]⟩ ⟨2, ![d, o]⟩ ⟨2, ![n, o]⟩) none A Wl)
               (Host.dotGeneral (⟨[1], [0], [0], [1], [], [], w⟩ : DotDims ⟨2, ![n, d]⟩ ⟨2, ![d, o]⟩ ⟨2, ![n, o]⟩) none X Wr))
         (broadcastInDim ⟨2, ![n, o]⟩ ![0, 1] h2 (broadcastInDim ⟨2, ![1, o]⟩ ![1] h1 b))
      = dense A X Wl Wr (fun q => b (ix1 q)) := by
  funext i
  obtain ⟨p, q, rfl⟩ : ∃ (p : Fin n) (q : Fin o), i = ix2 p q := ⟨i 0, i 1, eq_ix2 i⟩
  rw [dense_ix2, addf_apply, addf_apply, Cert.Dense.hostDot_plain_apply, Cert.Dense.hostDot_plain_apply,
    Cert.Dense.bcastRows_apply, Cert.Dense.bcastRow_apply]
  rfl

/-- The maximum with the zero splat is the positive part. -/
theorem hostRelu_eq {n d o : ℕ} (A X : (⟨2, ![n, d]⟩ : Shape).Idx → EReal) (Wl Wr : (⟨2, ![d, o]⟩ : Shape).Idx → EReal)
    (b : Fin o → EReal) (h : (⟨0, ![]⟩ : Shape).BroadcastsInDim ⟨2, ![n, o]⟩ ![]) :
    maximumf (φ := .f32) (dense A X Wl Wr b)
        (broadcastInDim ⟨2, ![n, o]⟩ ![] h (constant (F := Ideal) ⟨0, ![]⟩ .f32 0x00000000#32))
      = denseRelu A X Wl Wr b := by
  funext i
  rw [maximumf_apply, Cert.Dense.bcastScalar_apply, constant_apply, Ideal.ofBits_zero_f32]
  rfl

end Cert.Sage

end
-- ==== Proof.RefValue.lean ====
/-
  The reference program's result as one function of its argument arrays.

  The reference is host operations only.  Each of its two layers gathers the source rows of the features, scatter-adds
  them into zeros at the destination rows, divides each row by the clamped in-degree max(count, 1), and applies two
  plain dot products, their sum and the bias; the first layer is followed by the maximum with the zero splat.  Its
  composed result term is rewritten, layer by layer, into the dense combine of the aggregated features.
-/
import proofs.«104096_j37958920962734_1_alg».proof.Proof.Gen.ReferenceIdeal.Run
import proofs.«104096_j37958920962734_1_alg».proof.Proof.HostLayer

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.Sage

/-- The source row of the edge list, as a vector of words. -/
def srcOf (e : (⟨S2x1600000, .i32⟩ : BufTy).Contents (Elt Ideal)) : (⟨S1600000, .i32⟩ : BufTy).Contents (Elt Ideal) :=
  shapeCast S1600000 (extractStridedSlice S1x1600000 ![0, 0] e slices_S2x1600000_S1x1600000_0_0) shapeCasts_S1x1600000_S1600000

/-- The destination row of the edge list. -/
def dstOf (e : (⟨S2x1600000, .i32⟩ : BufTy).Contents (Elt Ideal)) : (⟨S1600000, .i32⟩ : BufTy).Contents (Elt Ideal) :=
  shapeCast S1600000 (extractStridedSlice S1x1600000 ![1, 0] e slices_S2x1600000_S1x1600000_1_0) shapeCasts_S1x1600000_S1600000

/-- The clamped in-degree: max(scatter-add of ones at the destinations, one). -/
def degOf (dst : (⟨S1600000, .i32⟩ : BufTy).Contents (Elt Ideal)) : (⟨S100000, .f32⟩ : BufTy).Contents (Elt Ideal) :=
  maximumf
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 dst)
      (broadcastInDim S1600000 ![] bcast_S_S1600000 (constant (F := Ideal) S_ .f32 0x3F800000#32)))
    (broadcastInDim S100000 ![] bcast_S_S100000 (constant (F := Ideal) S_ .f32 0x3F800000#32))

/-- The mean aggregation as the reference spells it: gather the rows at the (wrapped) source words, scatter-add them
    into zeros at the destination words, divide each row by the clamped in-degree. -/
def aggDiv (src dst : (⟨S1600000, .i32⟩ : BufTy).Contents (Elt Ideal)) (deg : (⟨S100000, .f32⟩ : BufTy).Contents (Elt Ideal))
    (f : (⟨S100000x128, .f32⟩ : BufTy).Contents (Elt Ideal)) : (⟨S100000x128, .f32⟩ : BufTy).Contents (Elt Ideal) :=
  Host.divf
    (Host.scatterAdd (F := Ideal) scatter_S100000x128_S1600000x1_S1600000x128_1_0_0_1
      (broadcastInDim S100000x128 ![] bcast_S_S100000x128 (constant (F := Ideal) S_ .f32 0x00000000#32))
      (broadcastInDim S1600000x1 ![0] bcast_S1600000_S1600000x1_0 dst)
      (Host.gather gather_S100000x128_S1600000x1_S1600000x128_1_0_n_n_0_1_1128 f
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 100000#32)))
            src))))
    (broadcastInDim S100000x128 ![0, 1] bcast_S100000x1_S100000x128_0_1
      (broadcastInDim S100000x1 ![0] bcast_S100000_S100000x1_0 deg))

/-- The reference's result as a function of its arguments. -/
def refOut (x : (⟨S100000x128, .f32⟩ : BufTy).Contents (Elt Ideal)) (e : (⟨S2x1600000, .i32⟩ : BufTy).Contents (Elt Ideal))
    (W1l W1r : (⟨S128x128, .f32⟩ : BufTy).Contents (Elt Ideal)) (b1 : (⟨S128, .f32⟩ : BufTy).Contents (Elt Ideal))
    (W2l W2r : (⟨S128x64, .f32⟩ : BufTy).Contents (Elt Ideal)) (b2 : (⟨S64, .f32⟩ : BufTy).Contents (Elt Ideal)) :
    (⟨S100000x64, .f32⟩ : BufTy).Contents (Elt Ideal) :=
  dense (aggDiv (srcOf e) (dstOf e) (degOf (dstOf e))
      (denseRelu (aggDiv (srcOf e) (dstOf e) (degOf (dstOf e)) x) x W1l W1r (fun q => b1 (ix1 q))))
    (denseRelu (aggDiv (srcOf e) (dstOf e) (degOf (dstOf e)) x) x W1l W1r (fun q => b1 (ix1 q)))
    W2l W2r (fun q => b2 (ix1 q))

set_option maxHeartbeats 4000000 in
/-- The run's composed result term is `refOut` of the launch contents of the arguments. -/
theorem res_eq (m : (ℓ : Loc nD τ sig) → Buf (Elt Ideal) ℓ) (c : Dev nD) :
    Cert.ReferenceIdeal.Value.res_main_v54 m c
      = refOut (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) := by
  unfold Cert.ReferenceIdeal.Value.res_main_v54
  unfold dot_S100000x128_S128x64_S100000x64_1_0_0_1_n_n dot_S100000x128_S128x128_S100000x128_1_0_0_1_n_n
  rw [hostLayer_eq, hostLayer_eq, hostRelu_eq]
  rfl

end Cert.ReferenceIdeal.RefValue

end
-- ==== Proof.Bridge.lean ====
/-
  The two programs compute one function of the arguments.

  Both programs apply, twice, a mean aggregation followed by a dense combine.  The dense combines are the same
  function on both sides.  The aggregations gather and scatter-add the same rows; the kernel program then scales each
  row by 1 / max(count, 1) where the reference divides it by max(count, 1).  Entry by entry these agree on every
  extended real, because the divisor is at least one and so never zero: off zero the exact division is the product with
  the reciprocal, and the quotient of one is that reciprocal.  No finiteness of the inputs is used.
-/
import proofs.«104096_j37958920962734_1_alg».proof.Proof.KernelRun
import proofs.«104096_j37958920962734_1_alg».proof.Proof.RefValue

noncomputable section

namespace Cert.Bridge

open Idealize.ShloMosaic Idealize.ShloMosaic.ValueIdx Cert.Sage

/-- A sum array scaled by the reciprocal of a clamped count, the reciprocal computed on the count's own shape and then
    repeated over the sum's shape, is the sum array divided by the clamped count repeated the same way: at every entry
    the divisor max(count, 1) is at least one. -/
theorem mean_forms {s1 s2 s3 : Shape} (dims1 : Fin s1.rank → Fin s2.rank) (dims2 : Fin s2.rank → Fin s3.rank)
    (h1 : s1.BroadcastsInDim s2 dims1) (h2 : s2.BroadcastsInDim s3 dims2)
    (h0 : (⟨0, ![]⟩ : Shape).BroadcastsInDim s1 ![])
    (S : FVec Ideal s3 .f32) (C : FVec Ideal s1 .f32) :
    mulf S (broadcastInDim s3 dims2 h2 (broadcastInDim s2 dims1 h1
        (Host.divf (broadcastInDim s1 ![] h0 (constant (F := Ideal) ⟨0, ![]⟩ .f32 0x3F800000#32))
          (maximumf C (broadcastInDim s1 ![] h0 (constant (F := Ideal) ⟨0, ![]⟩ .f32 0x3F800000#32))))))
      = Host.divf S (broadcastInDim s3 dims2 h2 (broadcastInDim s2 dims1 h1
          (maximumf C (broadcastInDim s1 ![] h0 (constant (F := Ideal) ⟨0, ![]⟩ .f32 0x3F800000#32))))) := by
  funext i
  exact scaled_eq_divided _ _

/-- The two programs name the same scatter and gather dimension records. -/
theorem records_eq :
    Cert.KernelIdeal.scatter_S100000x128_S1600000x1_S1600000x128_1_0_0_1 = Cert.ReferenceIdeal.scatter_S100000x128_S1600000x1_S1600000x128_1_0_0_1
    ∧ Cert.KernelIdeal.scatter_S100000_S1600000x1_S1600000_n_0_0_1 = Cert.ReferenceIdeal.scatter_S100000_S1600000x1_S1600000_n_0_0_1
    ∧ Cert.KernelIdeal.gather_S100000x128_S1600000x1_S1600000x128_1_0_n_n_0_1_1128 = Cert.ReferenceIdeal.gather_S100000x128_S1600000x1_S1600000x128_1_0_n_n_0_1_1128 :=
  ⟨rfl, rfl, rfl⟩

/-- The two programs cut the edge list into the same source and destination rows. -/
theorem rows_eq (e : (⟨Cert.KernelIdeal.S2x1600000, .i32⟩ : BufTy).Contents (Elt Ideal)) :
    Cert.KernelIdeal.Run.srcOf e = Cert.ReferenceIdeal.RefValue.srcOf e
    ∧ Cert.KernelIdeal.Run.dstOf e = Cert.ReferenceIdeal.RefValue.dstOf e := ⟨rfl, rfl⟩

set_option maxHeartbeats 1000000 in
/-- The mean aggregation in the kernel program's spelling (scale by the reciprocal of the clamped in-degree) is the
    reference's (divide by the clamped in-degree), for any feature array. -/
theorem agg_eq (e : (⟨Cert.KernelIdeal.S2x1600000, .i32⟩ : BufTy).Contents (Elt Ideal))
    (f : (⟨Cert.KernelIdeal.S100000x128, .f32⟩ : BufTy).Contents (Elt Ideal)) :
    Cert.KernelIdeal.Run.aggMul (Cert.KernelIdeal.Run.srcOf e) (Cert.KernelIdeal.Run.dstOf e)
        (Cert.KernelIdeal.Run.invOf (Cert.KernelIdeal.Run.dstOf e)) f
      = Cert.ReferenceIdeal.RefValue.aggDiv (Cert.ReferenceIdeal.RefValue.srcOf e) (Cert.ReferenceIdeal.RefValue.dstOf e)
          (Cert.ReferenceIdeal.RefValue.degOf (Cert.ReferenceIdeal.RefValue.dstOf e)) f := by
  rw [← (rows_eq e).1, ← (rows_eq e).2]
  unfold Cert.KernelIdeal.Run.aggMul Cert.KernelIdeal.Run.invOf Cert.ReferenceIdeal.RefValue.aggDiv Cert.ReferenceIdeal.RefValue.degOf
  rw [← records_eq.1, ← records_eq.2.1, ← records_eq.2.2]
  exact mean_forms _ _ _ _ _ _ _

/-- The kernel program's result function is the reference's. -/
theorem out_eq (x : (⟨Cert.KernelIdeal.S100000x128, .f32⟩ : BufTy).Contents (Elt Ideal))
    (e : (⟨Cert.KernelIdeal.S2x1600000, .i32⟩ : BufTy).Contents (Elt Ideal))
    (W1l W1r : (⟨Cert.KernelIdeal.S128x128, .f32⟩ : BufTy).Contents (Elt Ideal)) (b1 : (⟨Cert.KernelIdeal.S128, .f32⟩ : BufTy).Contents (Elt Ideal))
    (W2l W2r : (⟨Cert.KernelIdeal.S128x64, .f32⟩ : BufTy).Contents (Elt Ideal)) (b2 : (⟨Cert.KernelIdeal.S64, .f32⟩ : BufTy).Contents (Elt Ideal)) :
    Cert.KernelIdeal.Run.kernelOut x e W1l W1r b1 W2l W2r b2 = Cert.ReferenceIdeal.RefValue.refOut x e W1l W1r b1 W2l W2r b2 := by
  unfold Cert.KernelIdeal.Run.kernelOut Cert.ReferenceIdeal.RefValue.refOut
  rw [agg_eq e x, agg_eq e]

end Cert.Bridge

end
-- ==== Proof.lean ====
/-
  A two-layer mean-aggregating graph convolution: a kernel program against its plain reference, over the extended
  reals.

  Each layer maps node features h to  mean_{j → i} h_j · W_l + h_i · W_r + b, the mean taken over the in-neighbours of
  node i and divided by max(in-degree, 1); the first layer is followed by the positive part.  The kernel program leaves
  the gather and scatter-add of the aggregation to host operations and computes each layer's dense part in a kernel
  call over ten row blocks of 10000 nodes; it scales the aggregated rows by the reciprocal 1 / max(in-degree, 1).  The
  reference does everything with host operations and divides by max(in-degree, 1).

  The three frame claims are the generated frames (the reference's is its generated run with the result dropped).
  The idealization rewrote nothing, so there is nothing to preserve.  For the value claim both programs' results are
  read as functions of the argument arrays (the kernel program's over its four segments, the reference's from its
  generated run), and the two functions are equal: the dense parts are the same sums, and scaling by the reciprocal of
  a number that is at least one is dividing by it.  The inputs' finiteness is not used.
-/
import proofs.«104096_j37958920962734_1_alg».proof.Defs
import proofs.«104096_j37958920962734_1_alg».proof.Proof.Gen.Kernel
import proofs.«104096_j37958920962734_1_alg».proof.Proof.Gen.Kernel.Skeleton
import proofs.«104096_j37958920962734_1_alg».proof.Proof.Gen.Kernel.Launch
import proofs.«104096_j37958920962734_1_alg».proof.Proof.Gen.Kernel.Points
import proofs.«104096_j37958920962734_1_alg».proof.Proof.Gen.Kernel.Frame
import proofs.«104096_j37958920962734_1_alg».proof.Proof.Gen.KernelIdeal
import proofs.«104096_j37958920962734_1_alg».proof.Proof.Gen.KernelIdeal.Skeleton
import proofs.«104096_j37958920962734_1_alg».proof.Proof.Gen.KernelIdeal.Launch
import proofs.«104096_j37958920962734_1_alg».proof.Proof.Gen.KernelIdeal.Points
import proofs.«104096_j37958920962734_1_alg».proof.Proof.Gen.KernelIdeal.Frame
import proofs.«104096_j37958920962734_1_alg».proof.Proof.Gen.ReferenceIdeal
import proofs.«104096_j37958920962734_1_alg».proof.Proof.Gen.Pre_finite_inputs
import proofs.«104096_j37958920962734_1_alg».proof.Proof.Gen.ReferenceIdeal.Run
import proofs.«104096_j37958920962734_1_alg».proof.Proof.KernelRun
import proofs.«104096_j37958920962734_1_alg».proof.Proof.RefValue
import proofs.«104096_j37958920962734_1_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_kernel : Cert.frame_Kernel := fun m ρ _ => Cert.Kernel.Gen.frame m ρ

/-- The idealized kernel program runs and leaves its arguments unchanged. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result: the kernel program's result
    function of the arguments is the reference's. -/
theorem algebraic : Cert.algebraic_KernelIdeal_ReferenceIdeal := by
  intro m ρ m' ρ' _ hagree
  refine ⟨_, Cert.KernelIdeal.Run.run_out m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.RefValue.res_eq, a0, a1, a2, a3, a4, a5, a6, a7]
  exact (Cert.Bridge.out_eq _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
